-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S256x64 : Shape := ⟨2, ![256, 64]⟩
abbrev S2x1600000 : Shape := ⟨2, ![2, 1600000]⟩
abbrev S1600000 : Shape := ⟨1, ![1600000]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_
  bcast_S_S1600000 : S_.BroadcastsInDim S1600000 (![] : Fin 0 → Fin S1600000.rank)
  reducesTo_S1600000_S_d0 : S1600000.ReducesTo [0] S_

variable [Facts]

def fn {F : FTy → Type} [FloatOps F] (main_arg0 : FVec F S100000x256 .f32) (main_arg1 : FVec F S256x64 .f32) (main_arg2 : IVec S2x1600000 32) (main_arg3 : FVec F S1600000 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x64 .f32 := Host.absf main_arg1
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  let main_v9 : FVec F S1600000 .f32 := Host.absf main_arg3
  let main_cst_2 : FVec F S_ .f32 := constant S_ .f32 0x7F800000#32
  let main_v10 : FVec F S1600000 .f32 := broadcastInDim S1600000 ![] bcast_S_S1600000 main_cst_2
  let main_v11 : IVec S1600000 1 := cmpf .olt main_v9 main_v10
  let main_c_3 : IVec S_ 1 := constantI S_ 1 1#1
  let main_v12 : IVec S_ 1 := (fun x v => Host.reduce IntOp.andi x v reducesTo_S1600000_S_d0 h_S_) main_v11 main_c_3
  let main_v13 : IVec S_ 1 := andi main_v8 main_v12
  main_v13
-- ==== Kernel.lean ====
abbrev S100000x256 : Shape := ⟨2, ![100000, 256]⟩
abbrev S256x64 : Shape := ⟨2, ![256, 64]⟩
abbrev S2x1600000 : Shape := ⟨2, ![2, 1600000]⟩
abbrev S1600000 : Shape := ⟨1, ![1600000]⟩
abbrev S100000x64 : Shape := ⟨2, ![100000, 64]⟩
abbrev S2000x256 : Shape := ⟨2, ![2000, 256]⟩
abbrev S2000x64 : Shape := ⟨2, ![2000, 64]⟩
abbrev S1x1600000 : Shape := ⟨2, ![1, 1600000]⟩
abbrev S_ : Shape := ⟨0, ![]⟩
abbrev S1600000x1 : Shape := ⟨2, ![1600000, 1]⟩
abbrev S1600000x64 : Shape := ⟨2, ![1600000, 64]⟩
abbrev S5000x64 : Shape := ⟨2, ![5000, 64]⟩

abbrev nBuf : Space → Nat
  | .hbm => 26
  | .vmem => 9
  | .smem => 0
  | _ => 0

abbrev bufTy : (tb : Table) → Fin (tcTables nBuf tb) → BufTy
  | .hbm, ⟨0, _⟩ => ⟨S100000x256, .f32⟩
  | .hbm, ⟨1, _⟩ => ⟨S256x64, .f32⟩
  | .hbm, ⟨2, _⟩ => ⟨S2x1600000, .i32⟩
  | .hbm, ⟨3, _⟩ => ⟨S1600000, .f32⟩
  | .hbm, ⟨4, _⟩ => ⟨S100000x64, .f32⟩
  | .hbm, ⟨5, _⟩ => ⟨S1x1600000, .i32⟩
  | .hbm, ⟨6, _⟩ => ⟨S1600000, .i32⟩
  | .hbm, ⟨7, _⟩ => ⟨S1x1600000, .i32⟩
  | .hbm, ⟨8, _⟩ => ⟨S1600000, .i32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x64, .f32⟩
  | .hbm, ⟨18, _⟩ => ⟨S1600000x1, .f32⟩
  | .hbm, ⟨19, _⟩ => ⟨S1600000x64, .f32⟩
  | .hbm, ⟨20, _⟩ => ⟨S1600000x64, .f32⟩
  | .hbm, ⟨21, _⟩ => ⟨S_, .f32⟩
  | .hbm, ⟨22, _⟩ => ⟨S100000x64, .f32⟩
  | .hbm, ⟨23, _⟩ => ⟨S1600000x1, .i32⟩
  | .hbm, ⟨24, _⟩ => ⟨S100000x64, .f32⟩
  | .hbm, ⟨25, _⟩ => ⟨S100000x64, .f32⟩
  | .local _ .vmem, ⟨0, _⟩ => ⟨S2000x256, .f32⟩
  | .local _ .vmem, ⟨1, _⟩ => ⟨S2000x256, .f32⟩
  | .local _ .vmem, ⟨2, _⟩ => ⟨S256x64, .f32⟩
  | .local _ .vmem, ⟨3, _⟩ => ⟨S2000x64, .f32⟩
  | .local _ .vmem, ⟨4, _⟩ => ⟨S2000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_c_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

class Facts₀ : Prop where
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  inb_S2000x64_S2000x64_0_0 : ∀ a, (![0, 0] : Fin 2 → Nat) a + S2000x64.size a ≤ S2000x64.size a
  h_S2000x64 : 0 < S2000x64.numel
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  dot_S2000x256_S256x64_S2000x64_1_0_0_1_n_n_wf : DotDims.WF S2000x256 S256x64 S2000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S100000x256.size a
  hwx0_0 : ∀ i : grid0.Coords, EltTy.bits .f32 = 32 ∨ (Rect.block (s := S100000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S100000x64.size a
  hwx0_2 : ∀ i : grid0.Coords, EltTy.bits .f32 = 32 ∨ (Rect.block (s := S100000x64) S2000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)

variable [Facts₀]

def dot_S2000x256_S256x64_S2000x64_1_0_0_1_n_n : DotDims S2000x256 S256x64 S2000x64 where
  lhsContracting := [1]
  rhsContracting := [0]
  lhsNonContracting := [0]
  rhsNonContracting := [1]
  lhsBatch := []
  rhsBatch := []
  wf := dot_S2000x256_S256x64_S2000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v17) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S5000x64.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S100000x256 : Shape := ⟨2, ![100000, 256]⟩
abbrev S256x64 : Shape := ⟨2, ![256, 64]⟩
abbrev S2x1600000 : Shape := ⟨2, ![2, 1600000]⟩
abbrev S1600000 : Shape := ⟨1, ![1600000]⟩
abbrev S100000x64 : Shape := ⟨2, ![100000, 64]⟩
abbrev S1x1600000 : Shape := ⟨2, ![1, 1600000]⟩
abbrev S_ : Shape := ⟨0, ![]⟩
abbrev S1600000x1 : Shape := ⟨2, ![1600000, 1]⟩
abbrev S1600000x64 : Shape := ⟨2, ![1600000, 64]⟩

abbrev nBuf : Space → Nat
  | .hbm => 28
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S256x64, .f32⟩
  | .hbm, ⟨2, _⟩ => ⟨S2x1600000, .i32⟩
  | .hbm, ⟨3, _⟩ => ⟨S1600000, .f32⟩
  | .hbm, ⟨4, _⟩ => ⟨S100000x64, .f32⟩
  | .hbm, ⟨5, _⟩ => ⟨S1x1600000, .i32⟩
  | .hbm, ⟨6, _⟩ => ⟨S1600000, .i32⟩
  | .hbm, ⟨7, _⟩ => ⟨S1x1600000, .i32⟩
  | .hbm, ⟨8, _⟩ => ⟨S1600000, .i32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x64, .f32⟩
  | .hbm, ⟨18, _⟩ => ⟨S1600000x1, .f32⟩
  | .hbm, ⟨19, _⟩ => ⟨S1600000x64, .f32⟩
  | .hbm, ⟨20, _⟩ => ⟨S1600000x64, .f32⟩
  | .hbm, ⟨21, _⟩ => ⟨S_, .f32⟩
  | .hbm, ⟨22, _⟩ => ⟨S100000x64, .f32⟩
  | .hbm, ⟨23, _⟩ => ⟨S1600000x1, .i32⟩
  | .hbm, ⟨24, _⟩ => ⟨S100000x64, .f32⟩
  | .hbm, ⟨25, _⟩ => ⟨S_, .f32⟩
  | .hbm, ⟨26, _⟩ => ⟨S100000x64, .f32⟩
  | .hbm, ⟨27, _⟩ => ⟨S100000x64, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_c_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_call0_cst : Ref sig .tc := ⟨.hbm, 25, rfl⟩
abbrev main_call0_v0 : Ref sig .tc := ⟨.hbm, 26, rfl⟩
abbrev main_v18 : Ref sig .tc := ⟨.hbm, 27, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  dot_S100000x256_S256x64_S100000x64_1_0_0_1_n_n_wf : DotDims.WF S100000x256 S256x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.KernelRun.lean ====
/-
  The idealized kernel's whole run with its RESULT named. The program is: a blocked matrix product (first launch), a
  stretch of host operations (gather the product's rows by source node, scale by the edge weight, scatter-add by
  destination node), and a blocked pointwise maximum with zero (second launch). Every weakly fair execution of it
  terminates without fault; at the end the result array holds what the second launch's write-backs leave, block by
  block, over the contents the host stretch left, and the four argument arrays are as launched.
-/
import proofs.«146485_j6846177870229_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The result buffer after the last segment is the second launch's output array after its write-backs. -/
theorem W3_main_v18 (c : Dev nD) :
    W3 m ρ c (Proc.devRef .tc main_v18) = (dat1 (V2 m ρ) c).arrAt 1 cfg1.N :=
  W3_arr m ρ c 1

set_option backward.isDefEq.respectTransparency.types false in
/-- Every weakly fair execution of the program terminates, nothing faulting; the result array ends at the second
    launch's output array after its write-backs, and the argument arrays end as launched. -/
theorem run : θ_run defs (onTc (τ := τ) (main (F := F))) ⟨m, fun _ => 0, ρ⟩ (fun r => ∀ c : Dev nD,
      r.2.mem ((c.tc : Thread nD τ).loc main_v18) = (dat1 (V2 m ρ) c).arrAt 1 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨(h c _ (mem_uc main_v18 (by decide))).trans (W3_main_v18 m ρ c),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c)⟩)

end Cert.KernelIdeal.Whole

end
-- ==== Proof.ProductBlock.lean ====
/-
  One block of the first launch. The body loads a 2000 × 256 block of the node features and the whole 256 × 64 weight
  matrix, narrows both (a change of float format: the identity on extended reals) and multiplies them into a zero
  accumulator. Read at the entry (p, q) of the 2000 × 64 result block this is the sum over k of
  block(p, k) · weight(k, q): the accumulator's zero drops out and the contraction index is the one coordinate k.
-/
import proofs.«146485_j6846177870229_2_alg».proof.Proof.Gen.KernelIdeal.Skeleton
import Idealize.ShloMosaic.Lib.ValueIdx
import Idealize.ShloMosaic.PureOps.Ideal.Laws

noncomputable section

namespace Cert.KernelIdeal.Product

open Cert.KernelIdeal Cert.KernelIdeal.Gen Idealize.ShloMosaic Idealize.ShloMosaic.TcCoe

/-- The block product's dimension record: rows × contraction times contraction × columns. -/
abbrev dotB : DotDims S2000x256 S256x64 S2000x64 := dot_S2000x256_S256x64_S2000x64_1_0_0_1_n_n

theorem lhs_row (i : S2000x64.Idx) (q : dotB.contr.Idx) : (dotB.lhsIdx i q 0).val = (i 0).val := by
  unfold DotDims.lhsIdx
  rw [dif_neg (show ¬(0 : Fin S2000x256.rank) ∈ dotB.lhsBatch by decide), dif_pos (show (0 : Fin S2000x256.rank) ∈ dotB.lhsNonContracting by decide)]
  rfl
theorem lhs_col (i : S2000x64.Idx) (q : dotB.contr.Idx) : (dotB.lhsIdx i q 1).val = (q ⟨0, by decide⟩).val :=
  dotB.lhsIdx_val_of_single rfl i q
theorem rhs_row (i : S2000x64.Idx) (q : dotB.contr.Idx) : (dotB.rhsIdx i q 0).val = (q ⟨0, by decide⟩).val :=
  dotB.rhsIdx_val_of_single rfl i q
theorem rhs_col (i : S2000x64.Idx) (q : dotB.contr.Idx) : (dotB.rhsIdx i q 1).val = (i 1).val := by
  unfold DotDims.rhsIdx
  rw [dif_neg (show ¬(1 : Fin S256x64.rank) ∈ dotB.rhsBatch by decide), dif_pos (show (1 : Fin S256x64.rank) ∈ dotB.rhsNonContracting by decide)]
  rfl

/-- The feature block's entry the result entry `i` meets at contraction coordinate `k`: (row of `i`, `k`). -/
abbrev featAt (i : S2000x64.Idx) (k : Fin 256) : S2000x256.Idx := fun a => match a with
  | ⟨0, _⟩ => ⟨(i 0).val, (i 0).isLt⟩
  | ⟨1, _⟩ => ⟨k.val, k.isLt⟩
/-- The weight's entry it meets there: (`k`, column of `i`). -/
abbrev weightAt (i : S2000x64.Idx) (k : Fin 256) : S256x64.Idx := fun a => match a with
  | ⟨0, _⟩ => ⟨k.val, k.isLt⟩
  | ⟨1, _⟩ => ⟨(i 1).val, (i 1).isLt⟩

/-- The body's one stored value at an entry: the sum over the 256 contraction coordinates of feature × weight. -/
theorem block_apply (x0 : Vec Ideal S2000x256 .f32) (x1 : Vec Ideal S256x64 .f32) (i : S2000x64.Idx) :
    k0_pay1 (F := Ideal) x0 x1 i = ∑ k : Fin 256, x0 (featAt i k) * x1 (weightAt i k) := by
  unfold k0_pay1
  simp only [matmul]
  rw [Ideal.matmul_constant_zero_apply, ← Equiv.sum_comp (ValueIdx.contrEquiv1 dotB 256 rfl rfl).symm]
  refine Finset.sum_congr rfl fun k _ => ?_
  have hk := ValueIdx.contrEquiv1_symm_val dotB 256 rfl rfl k
  have el : dotB.lhsIdx i ((ValueIdx.contrEquiv1 dotB 256 rfl rfl).symm k) = featAt i k := funext fun a => Fin.ext (by
    match a with
    | ⟨0, _⟩ => exact lhs_row _ _
    | ⟨1, _⟩ => exact (lhs_col _ _).trans hk)
  have er : dotB.rhsIdx i ((ValueIdx.contrEquiv1 dotB 256 rfl rfl).symm k) = weightAt i k := funext fun a => Fin.ext (by
    match a with
    | ⟨0, _⟩ => exact (rhs_row _ _).trans hk
    | ⟨1, _⟩ => exact rhs_col _ _)
  rw [el, er]
  rfl

end Cert.KernelIdeal.Product

end
-- ==== Proof.Spec.lean ====
/-
  The two steps the kernel's program and the reference share, each as ONE function of whole arrays, for any float
  values. `aggregate h e w`: from the projected features `h` (one row of 64 per node), the 2 × E edge list `e` (row 0 the
  source nodes, row 1 the destination nodes) and the E edge weights `w`, gather row `src(j)` of `h` for every edge `j`
  (a negative source index first raised by the node count), scale it by `w(j)`, and add it into row `dst(j)` of a zero
  array. `reluZero a`: the entrywise maximum of `a` and zero. Neither is opened by the proof: both programs apply
  these same operations, so it only has to show that they apply them to the same projected features — `project x w`,
  on extended reals: entry (n, q) is the sum over the 256 input features k of x(n, k) · w(k, q).
-/
import proofs.«146485_j6846177870229_2_alg».proof.Proof.Gen.KernelIdeal
import Idealize.ShloMosaic.PureOps.Ideal

noncomputable section

namespace Cert.KernelIdeal.Spec

open Cert.KernelIdeal Cert.KernelIdeal.Gen Idealize.ShloMosaic Idealize.ShloMosaic.TcCoe

variable {F : FTy → Type} [FloatOps F]

/-- Gather the source rows, scale by the edge weights, scatter-add into the destination rows of a zero array. -/
def aggregate (h : (⟨S100000x64, .f32⟩ : BufTy).Contents (Elt F)) (e : (⟨S2x1600000, .i32⟩ : BufTy).Contents (Elt F))
    (w : (⟨S1600000, .f32⟩ : BufTy).Contents (Elt F)) : (⟨S100000x64, .f32⟩ : BufTy).Contents (Elt F) :=
  Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (shapeCast _ (extractStridedSlice S1x1600000 ![1, 0] e slices_S2x1600000_S1x1600000_1_0) shapeCasts_S1x1600000_S1600000)) (mulf (Host.gather gather_S100000x64_S1600000x1_S1600000x64_1_0_n_n_0_1_164 h (broadcastInDim S1600000x1 ![0] bcast_S1600000_S1600000x1_0 (select (cmpi .slt (shapeCast _ (extractStridedSlice S1x1600000 ![0, 0] e slices_S2x1600000_S1x1600000_0_0) shapeCasts_S1x1600000_S1600000) (broadcastInDim S1600000 ![] bcast_S_S1600000 (constantI S_ 32 0#32))) (addi (shapeCast _ (extractStridedSlice S1x1600000 ![0, 0] e slices_S2x1600000_S1x1600000_0_0) shapeCasts_S1x1600000_S1600000) (broadcastInDim S1600000 ![] bcast_S_S1600000 (constantI S_ 32 100000#32))) (shapeCast _ (extractStridedSlice S1x1600000 ![0, 0] e slices_S2x1600000_S1x1600000_0_0) shapeCasts_S1x1600000_S1600000)))) (broadcastInDim S1600000x64 ![0, 1] bcast_S1600000x1_S1600000x64_0_1 (broadcastInDim S1600000x1 ![0] bcast_S1600000_S1600000x1_0 w)))

/-- The entrywise maximum with zero. -/
def reluZero (a : (⟨S100000x64, .f32⟩ : BufTy).Contents (Elt F)) : (⟨S100000x64, .f32⟩ : BufTy).Contents (Elt F) :=
  maximumf a (broadcastInDim S100000x64 ![] bcast_S_S100000x64 (constant S_ .f32 0x00000000#32))

/-- The feature entry that output entry `i` meets at input feature `k`: (node of `i`, `k`). -/
abbrev featIdx (i : S100000x64.Idx) (k : Fin 256) : S100000x256.Idx := fun a => match a with
  | ⟨0, _⟩ => ⟨(i 0).val, (i 0).isLt⟩
  | ⟨1, _⟩ => ⟨k.val, k.isLt⟩
/-- The weight entry it meets there: (`k`, output feature of `i`). -/
abbrev weightIdx (i : S100000x64.Idx) (k : Fin 256) : S256x64.Idx := fun a => match a with
  | ⟨0, _⟩ => ⟨k.val, k.isLt⟩
  | ⟨1, _⟩ => ⟨(i 1).val, (i 1).isLt⟩

/-- The projected features on extended reals: the plain matrix product, one sum of 256 products per entry. -/
def project (x : S100000x256.Idx → EReal) (w : S256x64.Idx → EReal) : S100000x64.Idx → EReal :=
  fun i => ∑ k : Fin 256, x (featIdx i k) * w (weightIdx i k)

end Cert.KernelIdeal.Spec

end
-- ==== Proof.ProductArray.lean ====
/-
  The first launch's output array. The grid has 50 points; point t loads rows 2000·t … 2000·t + 1999 of the node
  features and the whole weight matrix, and writes back rows 2000·t … 2000·t + 1999 of the output. What it writes is
  its block of ONE whole-array function — the plain matrix product of the two input arrays — because the entry (p, q)
  of the block product only meets row p of the feature block, which is row 2000·t + p of the array. The 50 row blocks
  cover the 100000 rows (row r lies in block r / 2000), so after the launch the output array IS the matrix product.
-/
import proofs.«146485_j6846177870229_2_alg».proof.Proof.Gen.KernelIdeal.Frame
import proofs.«146485_j6846177870229_2_alg».proof.Proof.ProductBlock
import proofs.«146485_j6846177870229_2_alg».proof.Proof.Spec
import Idealize.ShloMosaic.Lib.Pipeline.Value

set_option maxRecDepth 16384

noncomputable section

namespace Cert.KernelIdeal.Product

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The printed block-index maps over the 50 points: the feature window and the output window sit at row block `t`,
    column block 0; the weight window always at block (0, 0). -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the matrix product of the two input arrays as the launch finds them. -/
theorem flushed_eq (c : Dev nD) (t : Fin cfg0.N) :
    (dat0 V c).flushed 2 t = ((cfg0.win 2).blk t).view.read (Elt Ideal) (Spec.project (V c main_arg0) (V c main_arg1)) := by
  show (cfg0.win 2).cut (grid0.coords t) ((dat0 V c).after 2 t) = _
  rw [after0_2]
  unfold out0_2
  rw [View.canon_unit_zero zero_offsets]
  simp only [View.ld_unit_zero (S := S2000x256) zero_offsets, View.ld_unit_zero (S := S256x64) zero_offsets]
  obtain ⟨e0, e1, e2, e3, e4, e5⟩ := block_indices t
  funext j
  show k0_pay1 (iblk0 V c 0 t) (iblk0 V c 1 t) j = Spec.project (V c main_arg0) (V c main_arg1) (((cfg0.win 2).blk t).view.emb j)
  refine (block_apply (iblk0 V c 0 t) (iblk0 V c 1 t) j).trans ?_
  unfold Spec.project
  refine Finset.sum_congr rfl fun k _ => ?_
  have hj0 : (j 0).val < 2000 := (j 0).isLt
  have hj1 : (j 1).val < 64 := (j 1).isLt
  have h0 : ((cfg0.win 0).blk t).view.emb (featAt j k) = Spec.featIdx (((cfg0.win 2).blk t).view.emb j) k := by
    funext a; apply Fin.ext
    match a with
    | ⟨0, _⟩ => show win0_0.index t (0 : Fin 2) * 2000 + 1 * (j 0).val = win0_2.index t (0 : Fin 2) * 2000 + 1 * (j 0).val; omega
    | ⟨1, _⟩ => show win0_0.index t (1 : Fin 2) * 256 + 1 * k.val = k.val; omega
  have h1 : ((cfg0.win 1).blk t).view.emb (weightAt j k) = Spec.weightIdx (((cfg0.win 2).blk t).view.emb j) k := by
    funext a; apply Fin.ext
    match a with
    | ⟨0, _⟩ => show win0_1.index t (0 : Fin 2) * 256 + 1 * k.val = k.val; omega
    | ⟨1, _⟩ => show win0_1.index t (1 : Fin 2) * 64 + 1 * (j 1).val = win0_2.index t (1 : Fin 2) * 64 + 1 * (j 1).val; omega
  have r0 : iblk0 V c 0 t (featAt j k) = V c main_arg0 (Spec.featIdx (((cfg0.win 2).blk t).view.emb j) k) := by
    show V c main_arg0 (((cfg0.win 0).blk t).view.emb (featAt j k)) = _
    rw [h0]
  have r1 : iblk0 V c 1 t (weightAt j k) = V c main_arg1 (Spec.weightIdx (((cfg0.win 2).blk t).view.emb j) k) := by
    show V c main_arg1 (((cfg0.win 1).blk t).view.emb (weightAt j k)) = _
    rw [h1]
  rw [r0, r1]

/-- An entry of the output array is in point `t`'s block iff each coordinate is in the block's range on its axis. -/
theorem mem_block (t : Fin cfg0.N) (i : S100000x64.Idx) :
    i ∈ ((cfg0.win 2).blk t).view.set ↔ ∀ a : Fin 2, win0_2.index t a * S2000x64.size a ≤ (i a).val ∧ (i a).val < win0_2.index t a * S2000x64.size a + S2000x64.size a := by
  show i ∈ ((View.whole main_v0).slice (win0_2.rect t)).set ↔ _
  rw [View.set_slice_whole, Rect.mem_set_unit]
  exact Iff.rfl

/-- Every entry of the output array lies in the block of the point its row falls in, and every point writes back. -/
theorem cover (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  have hN : (i 0).val / 2000 < cfg0.N := by show _ < grid0.N; rw [N_0]; omega
  obtain ⟨-, -, -, -, e4, e5⟩ := block_indices ⟨(i 0).val / 2000, hN⟩
  have e4' : win0_2.index ⟨(i 0).val / 2000, hN⟩ (0 : Fin 2) = (i 0).val / 2000 := e4
  refine ⟨⟨(i 0).val / 2000, hN⟩, flush0_2 _, ?_⟩
  rw [mem_block]
  intro a
  match a with
  | ⟨0, _⟩ => show win0_2.index ⟨(i 0).val / 2000, hN⟩ (0 : Fin 2) * 2000 ≤ (i 0).val ∧ (i 0).val < win0_2.index ⟨(i 0).val / 2000, hN⟩ (0 : Fin 2) * 2000 + 2000; omega
  | ⟨1, _⟩ => show win0_2.index ⟨(i 0).val / 2000, hN⟩ (1 : Fin 2) * 64 ≤ (i 1).val ∧ (i 1).val < win0_2.index ⟨(i 0).val / 2000, hN⟩ (1 : Fin 2) * 64 + 64; omega

/-- After the first launch its output array is the matrix product of the two arrays it read. -/
theorem array_eq (c : Dev nD) :
    (dat0 V c).arrAt 2 cfg0.N = Spec.project (V c main_arg0) (V c main_arg1) :=
  (dat0 V c).arrAt_eq_of_cover 2 (Spec.project (V c main_arg0) (V c main_arg1)) (fun t _ => flushed_eq V c t) cover

end Cert.KernelIdeal.Product

end
-- ==== Proof.HostStretch.lean ====
/-
  Between the two launches. The host operations between the launches read the first launch's output array, the edge
  list and the edge weights, and leave the second launch's input array. Composed, they are the shared aggregation
  applied to whatever the first launch left in its output array; the edge list and the edge weights are still the
  launch's, since the first launch writes neither.
-/
import proofs.«146485_j6846177870229_2_alg».proof.Proof.Gen.KernelIdeal.Frame
import proofs.«146485_j6846177870229_2_alg».proof.Proof.Spec
import Idealize.ShloMosaic.Lib.StableHlo.Run

set_option maxRecDepth 16384

noncomputable section

namespace Cert.KernelIdeal.Stretch

open Cert.KernelIdeal Cert.KernelIdeal.Gen Idealize.ShloMosaic Idealize.ShloMosaic.TcCoe Idealize.SL.Sem
open Idealize.ShloMosaic.StableHlo

variable {F : FTy → Type} [FloatOps F]
variable (m : (ℓ : Loc nD τ sig) → Buf (Elt F) ℓ) (ρ : Dev nD → PrngReg)

/-- The first launch leaves the edge list as launched: it is no array of that launch's windows. -/
theorem edges_kept (c : Dev nD) : V1 m ρ c main_arg2 = m ((c : Thread nD τ).loc main_arg2) :=
  (W1_of_ne m ρ c main_arg2 (by decide)).trans rfl
/-- Likewise the edge weights. -/
theorem weights_kept (c : Dev nD) : V1 m ρ c main_arg3 = m ((c : Thread nD τ).loc main_arg3) :=
  (W1_of_ne m ρ c main_arg3 (by decide)).trans rfl

/-- The second launch's input array, as that launch finds it, is the aggregation of the first launch's output array
    along the launch's edge list with the launch's edge weights. -/
theorem entry_eq (c : Dev nD) :
    V2 m ρ c main_v17 = Spec.aggregate (V1 m ρ c main_v0) (m ((c : Thread nD τ).loc main_arg2)) (m ((c : Thread nD τ).loc main_arg3)) := by
  rw [← edges_kept m ρ c, ← weights_kept m ρ c]
  show StableHlo.after hostOps1 (W1 m ρ c) (Proc.devRef .tc main_v17) = _
  after_results
  rfl

end Cert.KernelIdeal.Stretch

end
-- ==== Proof.ReluArray.lean ====
/-
  The second launch's output array. The grid has 20 points; point t loads rows 5000·t … 5000·t + 4999 of its input
  array and writes back the same rows of the output, each entry the maximum of the input entry and zero. So every point
  writes its block of ONE whole-array function, the entrywise maximum with zero of the input array, and the 20 row
  blocks cover the 100000 rows (row r lies in block r / 5000): after the launch the output array is that function.
-/
import proofs.«146485_j6846177870229_2_alg».proof.Proof.Gen.KernelIdeal.Frame
import proofs.«146485_j6846177870229_2_alg».proof.Proof.Spec
import Idealize.ShloMosaic.Lib.Pipeline.Value

set_option maxRecDepth 16384

noncomputable section

namespace Cert.KernelIdeal.Relu

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The body's one stored value at an entry: the maximum of the loaded entry and the zero word's value (the reshape
    in front of it is between equal shapes, the identity). -/
theorem block_apply (x : Vec Ideal S5000x64 .f32) (j : S5000x64.Idx) :
    k1_pay1 (F := Ideal) x j = (FloatOps.maximumf (x j) (FloatOps.ofBits .f32 0x00000000#32) : Ideal .f32) := by
  unfold k1_pay1
  rw [shapeCast_self]
  rfl

/-- The whole-array maximum with zero at an entry: the zero array is a scalar constant spread over the shape. -/
theorem reluZero_apply (a : (⟨S100000x64, .f32⟩ : BufTy).Contents (Elt Ideal)) (i : S100000x64.Idx) :
    Spec.reluZero (F := Ideal) a i = (FloatOps.maximumf (a i) (FloatOps.ofBits .f32 0x00000000#32) : Ideal .f32) := by
  unfold Spec.reluZero
  show FloatOps.maximumf (a i) (broadcastInDim S100000x64 ![] bcast_S_S100000x64 (constant (F := Ideal) S_ .f32 0x00000000#32) i) = _
  rw [broadcastInDim_apply _ bcast_S_S100000x64 _ i (fun a => a.elim0) (fun a => a.elim0)]
  rfl

/-- The printed block-index maps over the 20 points: both windows sit at row block `t`, column block 0. -/
theorem block_indices : ∀ t : Fin cfg1.N, win1_0.index t (0 : Fin 2) = t.val ∧ win1_0.index t (1 : Fin 2) = 0
    ∧ win1_1.index t (0 : Fin 2) = t.val ∧ win1_1.index t (1 : Fin 2) = 0 :=
  (by decide +kernel : ∀ t : Fin grid1.N, _)

/-- What point `t` writes back is block `t` of the maximum with zero of the input array as the launch finds it. -/
theorem flushed_eq (c : Dev nD) (t : Fin cfg1.N) :
    (dat1 V c).flushed 1 t = ((cfg1.win 1).blk t).view.read (Elt Ideal) (Spec.reluZero (F := Ideal) (V c main_v17)) := by
  show (cfg1.win 1).cut (grid1.coords t) ((dat1 V c).after 1 t) = _
  rw [after1_1]
  unfold out1_1
  rw [View.canon_unit_zero zero_offsets]
  simp only [View.ld_unit_zero (S := S5000x64) zero_offsets]
  obtain ⟨e0, e1, e2, e3⟩ := block_indices t
  funext j
  show k1_pay1 (iblk1 V c 0 t) j = Spec.reluZero (F := Ideal) (V c main_v17) (((cfg1.win 1).blk t).view.emb j)
  refine (block_apply (iblk1 V c 0 t) j).trans ?_
  rw [reluZero_apply]
  have h0 : ((cfg1.win 0).blk t).view.emb j = ((cfg1.win 1).blk t).view.emb j := by
    funext a; apply Fin.ext
    match a with
    | ⟨0, _⟩ => show win1_0.index t (0 : Fin 2) * 5000 + 1 * (j 0).val = win1_1.index t (0 : Fin 2) * 5000 + 1 * (j 0).val; omega
    | ⟨1, _⟩ => show win1_0.index t (1 : Fin 2) * 64 + 1 * (j 1).val = win1_1.index t (1 : Fin 2) * 64 + 1 * (j 1).val; omega
  show (FloatOps.maximumf (V c main_v17 (((cfg1.win 0).blk t).view.emb j)) (FloatOps.ofBits .f32 0x00000000#32) : Ideal .f32) = _
  rw [h0]

/-- An entry of the output array is in point `t`'s block iff each coordinate is in the block's range on its axis. -/
theorem mem_block (t : Fin cfg1.N) (i : S100000x64.Idx) :
    i ∈ ((cfg1.win 1).blk t).view.set ↔ ∀ a : Fin 2, win1_1.index t a * S5000x64.size a ≤ (i a).val ∧ (i a).val < win1_1.index t a * S5000x64.size a + S5000x64.size a := by
  show i ∈ ((View.whole main_v18).slice (win1_1.rect t)).set ↔ _
  rw [View.set_slice_whole, Rect.mem_set_unit]
  exact Iff.rfl

/-- Every entry of the output array lies in the block of the point its row falls in, and every point writes back. -/
theorem cover (i : S100000x64.Idx) : ∃ t : Fin cfg1.N, (cfg1.win 1).flush t = true ∧ i ∈ ((cfg1.win 1).blk t).view.set := by
  have hi0 : (i 0).val < 100000 := (i 0).isLt
  have hi1 : (i 1).val < 64 := (i 1).isLt
  have hN : (i 0).val / 5000 < cfg1.N := by show _ < grid1.N; rw [N_1]; omega
  obtain ⟨-, -, e2, e3⟩ := block_indices ⟨(i 0).val / 5000, hN⟩
  have e2' : win1_1.index ⟨(i 0).val / 5000, hN⟩ (0 : Fin 2) = (i 0).val / 5000 := e2
  refine ⟨⟨(i 0).val / 5000, hN⟩, flush1_1 _, ?_⟩
  rw [mem_block]
  intro a
  match a with
  | ⟨0, _⟩ => show win1_1.index ⟨(i 0).val / 5000, hN⟩ (0 : Fin 2) * 5000 ≤ (i 0).val ∧ (i 0).val < win1_1.index ⟨(i 0).val / 5000, hN⟩ (0 : Fin 2) * 5000 + 5000; omega
  | ⟨1, _⟩ => show win1_1.index ⟨(i 0).val / 5000, hN⟩ (1 : Fin 2) * 64 ≤ (i 1).val ∧ (i 1).val < win1_1.index ⟨(i 0).val / 5000, hN⟩ (1 : Fin 2) * 64 + 64; omega

/-- After the second launch its output array is the entrywise maximum with zero of the array it read. -/
theorem array_eq (c : Dev nD) :
    (dat1 V c).arrAt 1 cfg1.N = Spec.reluZero (F := Ideal) (V c main_v17) :=
  (dat1 V c).arrAt_eq_of_cover 1 (Spec.reluZero (F := Ideal) (V c main_v17)) (fun t _ => flushed_eq V c t) cover

end Cert.KernelIdeal.Relu

end
-- ==== Proof.KernelValue.lean ====
/-
  The idealized kernel's result as one function of its arguments. Chaining the three steps: the second launch leaves
  the maximum with zero of its input array; that input array is the aggregation of the first launch's output array
  along the edge list with the edge weights; and the first launch's output array is the matrix product of the node
  features and the weight matrix. So the program ends with
      result = max(0, aggregate(features · weight, edges, edge weights)).
-/
import proofs.«146485_j6846177870229_2_alg».proof.Proof.KernelRun
import proofs.«146485_j6846177870229_2_alg».proof.Proof.ProductArray
import proofs.«146485_j6846177870229_2_alg».proof.Proof.HostStretch
import proofs.«146485_j6846177870229_2_alg».proof.Proof.ReluArray

set_option maxRecDepth 16384

noncomputable section

namespace Cert.KernelIdeal.Whole

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- The first launch's output buffer, as the host stretch finds it, is the matrix product of the launch's node
    features and weight matrix. -/
theorem projected_eq (c : Dev nD) :
    V1 m ρ c main_v0 = Spec.project (m ((c : Thread nD τ).loc main_arg0)) (m ((c : Thread nD τ).loc main_arg1)) :=
  (W1_arr m ρ c 2).trans (Product.array_eq (V0 m ρ) c)

/-- The second launch's output array after its write-backs, as a function of the launch memory. -/
theorem result_eq (c : Dev nD) :
    (dat1 (V2 m ρ) c).arrAt 1 cfg1.N
      = Spec.reluZero (F := Ideal) (Spec.aggregate (F := Ideal)
          (Spec.project (m ((c : Thread nD τ).loc main_arg0)) (m ((c : Thread nD τ).loc main_arg1)))
          (m ((c : Thread nD τ).loc main_arg2)) (m ((c : Thread nD τ).loc main_arg3))) := by
  rw [Relu.array_eq (V2 m ρ) c, Stretch.entry_eq m ρ c, projected_eq m ρ c]

/-- Every weakly fair execution of the idealized kernel's program terminates, nothing faulting, with the result array
    at the maximum with zero of the aggregated matrix product of the launch's arrays, and the arguments as launched. -/
theorem run_value : θ_run defs (onTc (τ := τ) (main (F := Ideal))) ⟨m, fun _ => 0, ρ⟩ (fun r => ∀ c : Dev nD,
      r.2.mem ((c.tc : Thread nD τ).loc main_v18)
        = Spec.reluZero (F := Ideal) (Spec.aggregate (F := Ideal)
            (Spec.project (m ((c.tc : Thread nD τ).loc main_arg0)) (m ((c.tc : Thread nD τ).loc main_arg1)))
            (m ((c.tc : Thread nD τ).loc main_arg2)) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (result_eq m ρ c), (h c).2⟩) (run m ρ)

end Cert.KernelIdeal.Whole

end
-- ==== Proof.ReferenceValue.lean ====
/-
  The reference's result is the shared aggregation and maximum applied to ITS projected features: jnp's whole
  100000 × 256 by 256 × 64 product. The reference's operations after the product are, one for one, the operations
  `aggregate` and `reluZero` are made of, so the two terms are the same term; and on extended reals that product is
  the plain sum of products the kernel's blocks add up to.
-/
import proofs.«146485_j6846177870229_2_alg».proof.Proof.Spec
import proofs.«146485_j6846177870229_2_alg».proof.Proof.Gen.ReferenceIdeal.Read

noncomputable section

namespace Cert.ReferenceIdeal.Whole

open Idealize.ShloMosaic Idealize.ShloMosaic.TcCoe
open Cert.ReferenceIdeal Cert.ReferenceIdeal.Gen

variable {F : FTy → Type} [FloatOps F]

/-- The reference's last stage is maximum-with-zero of the aggregation of its product stage. -/
theorem result_eq (x0 : (⟨S100000x256, .f32⟩ : BufTy).Contents (Elt F)) (x1 : (⟨S256x64, .f32⟩ : BufTy).Contents (Elt F))
    (x2 : (⟨S2x1600000, .i32⟩ : BufTy).Contents (Elt F)) (x3 : (⟨S1600000, .f32⟩ : BufTy).Contents (Elt F)) :
    Read.val_main_v18 (F := F) x0 x1 x2 x3
      = Cert.KernelIdeal.Spec.reluZero (Cert.KernelIdeal.Spec.aggregate (Read.val_main_v0 (F := F) x0 x1) x2 x3) := rfl

/-- On extended reals the reference's product stage is the plain matrix product: jnp's contraction read at an entry
    is the sum over the one contracted coordinate of the two operands' products. -/
theorem product_eq (x0 : (⟨S100000x256, .f32⟩ : BufTy).Contents (Elt Ideal)) (x1 : (⟨S256x64, .f32⟩ : BufTy).Contents (Elt Ideal)) :
    Read.val_main_v0 (F := Ideal) x0 x1 = Cert.KernelIdeal.Spec.project x0 x1 :=
  funext fun i => (Read.val_main_v0_apply x0 x1 i).trans rfl

end Cert.ReferenceIdeal.Whole

end
-- ==== Proof.lean ====
/-
  A graph-convolution layer, out = max(0, A · (x · W)), with the sparse product A · h spelt as: gather row src(j) of
  h for every edge j, scale it by the edge's weight, add it into row dst(j).

  The kernel's program computes x · W in a first launch (50 blocks of 2000 rows; each block narrows its operands,
  which is the identity on extended reals, and multiplies into a zero accumulator), runs the gather / scale /
  scatter-add on the host, and takes the maximum with zero in a second launch (20 blocks of 5000 rows). The reference
  computes x · W as one contraction, runs the very same gather / scale / scatter-add, and takes the same maximum.

  On extended reals the two agree entry by entry: an entry of the blocked product is the sum over the 256 input
  features of x(n, k) · W(k, q), exactly the entry of the whole contraction (no rearrangement of the sum is needed,
  only the accumulator's zero dropped); the operations between are the same function applied to equal arrays; and a
  blocked entrywise maximum is the entrywise maximum. No hypothesis on the inputs is used. The idealization rewrote
  nothing of the kernel, so that claim is trivial.
-/
import proofs.«146485_j6846177870229_2_alg».proof.Defs
import proofs.«146485_j6846177870229_2_alg».proof.Proof.Gen.Kernel
import proofs.«146485_j6846177870229_2_alg».proof.Proof.Gen.Kernel.Frame
import proofs.«146485_j6846177870229_2_alg».proof.Proof.Gen.KernelIdeal
import proofs.«146485_j6846177870229_2_alg».proof.Proof.Gen.KernelIdeal.Frame
import proofs.«146485_j6846177870229_2_alg».proof.Proof.Gen.ReferenceIdeal
import proofs.«146485_j6846177870229_2_alg».proof.Proof.Gen.ReferenceIdeal.Run
import proofs.«146485_j6846177870229_2_alg».proof.Proof.Gen.ReferenceIdeal.Read
import proofs.«146485_j6846177870229_2_alg».proof.Proof.Gen.Pre_finite_inputs
import proofs.«146485_j6846177870229_2_alg».proof.Proof.KernelValue
import proofs.«146485_j6846177870229_2_alg».proof.Proof.ReferenceValue
import Idealize.ShloMosaic.Adequacy
import Idealize.ShloMosaic.Init

noncomputable section

namespace Cert.Proof

open Idealize.ShloMosaic Idealize.ShloMosaic.TcCoe Idealize.SL.Sem

/-- The word-level kernel's program runs and leaves its arguments as launched. -/
theorem frame_kernel : Cert.frame_Kernel := fun m ρ _ => Cert.Kernel.Gen.frame m ρ

/-- So does the idealized one. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with max(0, aggregate(x · W, edges, edge weights)) of arguments that agree. -/
theorem algebraic : Cert.algebraic_KernelIdeal_ReferenceIdeal := by
  intro m ρ m' ρ' _ hagree
  refine ⟨_, Cert.KernelIdeal.Whole.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, Cert.ReferenceIdeal.Whole.result_eq, Cert.ReferenceIdeal.Whole.product_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
